-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S100000x128 : Shape := ⟨2, ![100000, 128]⟩
abbrev S500000 : Shape := ⟨1, ![500000]⟩
abbrev S384x128 : Shape := ⟨2, ![384, 128]⟩
abbrev S128 : Shape := ⟨1, ![128]⟩
abbrev S128x128 : Shape := ⟨2, ![128, 128]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S128x128 .f32) (main_arg7 : FVec F S128 .f32) (main_arg8 : FVec F S128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_v33

def fn {F : FTy → Type} [FloatOps F] (main_arg0 : FVec F S500000x128 .f32) (main_arg1 : FVec F S100000x128 .f32) (main_arg2 : IVec S500000 32) (main_arg3 : IVec S500000 32) (main_arg4 : FVec F S384x128 .f32) (main_arg5 : FVec F S128 .f32) (main_arg6 : FVec F S128x128 .f32) (main_arg7 : FVec F S128 .f32) (main_arg8 : FVec F S128 .f32) (main_arg9 : FVec F S128 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S384x128 .f32 := Host.absf main_arg4
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S500000x128 : Shape := ⟨2, ![500000, 128]⟩
abbrev S100000x128 : Shape := ⟨2, ![100000, 128]⟩
abbrev S500000 : Shape := ⟨1, ![500000]⟩
abbrev S384x128 : Shape := ⟨2, ![384, 128]⟩
abbrev S128 : Shape := ⟨1, ![128]⟩
abbrev S128x128 : Shape := ⟨2, ![128, 128]⟩
abbrev S_ : Shape := ⟨0, ![]⟩
abbrev S500000x1 : Shape := ⟨2, ![500000, 1]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 37
  | .vmem => 16
  | .smem => 0
  | _ => 0

abbrev bufTy : (tb : Table) → Fin (tcTables nBuf tb) → BufTy
  | .hbm, ⟨0, _⟩ => ⟨S500000x128, .f32⟩
  | .hbm, ⟨1, _⟩ => ⟨S100000x128, .f32⟩
  | .hbm, ⟨2, _⟩ => ⟨S500000, .i32⟩
  | .hbm, ⟨3, _⟩ => ⟨S500000, .i32⟩
  | .hbm, ⟨4, _⟩ => ⟨S384x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S100000x128, .bf16⟩
  | .hbm, ⟨11, _⟩ => ⟨S_, .i32⟩
  | .hbm, ⟨12, _⟩ => ⟨S500000, .i32⟩
  | .hbm, ⟨13, _⟩ => ⟨S500000, .i1⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S500000x1, .i32⟩
  | .hbm, ⟨19, _⟩ => ⟨S500000x128, .bf16⟩
  | .hbm, ⟨20, _⟩ => ⟨S_, .i32⟩
  | .hbm, ⟨21, _⟩ => ⟨S500000, .i32⟩
  | .hbm, ⟨22, _⟩ => ⟨S500000, .i1⟩
  | .hbm, ⟨23, _⟩ => ⟨S_, .i32⟩
  | .hbm, ⟨24, _⟩ => ⟨S500000, .i32⟩
  | .hbm, ⟨25, _⟩ => ⟨S500000, .i32⟩
  | .hbm, ⟨26, _⟩ => ⟨S500000, .i32⟩
  | .hbm, ⟨27, _⟩ => ⟨S500000x1, .i32⟩
  | .hbm, ⟨28, _⟩ => ⟨S500000x128, .bf16⟩
  | .hbm, ⟨29, _⟩ => ⟨S128x128, .f32⟩
  | .hbm, ⟨30, _⟩ => ⟨S128x128, .f32⟩
  | .hbm, ⟨31, _⟩ => ⟨S128x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S500000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .bf16⟩
  | .local _ .vmem, ⟨3, _⟩ => ⟨S5000x128, .bf16⟩
  | .local _ .vmem, ⟨4, _⟩ => ⟨S5000x128, .bf16⟩
  | .local _ .vmem, ⟨5, _⟩ => ⟨S5000x128, .bf16⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  bcast_S_S500000 : S_.BroadcastsInDim S500000 (![] : Fin 0 → Fin S500000.rank)
  bcast_S500000_S500000x1_0 : S500000.BroadcastsInDim S500000x1 (![0] : Fin 1 → Fin S500000x1.rank)
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  gather_S100000x128_S500000x1_S500000x128_1_0_n_n_0_1_1128_wf : GatherDims.WF S100000x128 S500000x1 S500000x128 [1] [0] [] [0] [] 1 ![1, 128]
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S500000x128.size a
  hwx0_1 : ∀ i : grid0.Coords, EltTy.bits .bf16 = 32 ∨ (Rect.block (s := S500000x128) S5000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S500000x128.size a
  hwx0_2 : ∀ i : grid0.Coords, EltTy.bits .bf16 = 32 ∨ (Rect.block (s := S500000x128) S5000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x128.size a ≤ S500000x128.size a
  hwx0_11 : ∀ i : grid0.Coords, EltTy.bits .f32 = 32 ∨ (Rect.block (s := S500000x128) S5000x128.size (cc0_transform_11 i) (hinb0_11 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v21) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v22) S5000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S500000x128 : Shape := ⟨2, ![500000, 128]⟩
abbrev S100000x128 : Shape := ⟨2, ![100000, 128]⟩
abbrev S500000 : Shape := ⟨1, ![500000]⟩
abbrev S384x128 : Shape := ⟨2, ![384, 128]⟩
abbrev S128 : Shape := ⟨1, ![128]⟩
abbrev S128x128 : Shape := ⟨2, ![128, 128]⟩
abbrev S_ : Shape := ⟨0, ![]⟩
abbrev S500000x1 : Shape := ⟨2, ![500000, 1]⟩
abbrev S500000x384 : Shape := ⟨2, ![500000, 384]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S100000x128, .f32⟩
  | .hbm, ⟨2, _⟩ => ⟨S500000, .i32⟩
  | .hbm, ⟨3, _⟩ => ⟨S500000, .i32⟩
  | .hbm, ⟨4, _⟩ => ⟨S384x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S_, .i32⟩
  | .hbm, ⟨11, _⟩ => ⟨S500000, .i32⟩
  | .hbm, ⟨12, _⟩ => ⟨S500000, .i1⟩
  | .hbm, ⟨13, _⟩ => ⟨S_, .i32⟩
  | .hbm, ⟨14, _⟩ => ⟨S500000, .i32⟩
  | .hbm, ⟨15, _⟩ => ⟨S500000, .i32⟩
  | .hbm, ⟨16, _⟩ => ⟨S500000, .i32⟩
  | .hbm, ⟨17, _⟩ => ⟨S500000x1, .i32⟩
  | .hbm, ⟨18, _⟩ => ⟨S500000x128, .f32⟩
  | .hbm, ⟨19, _⟩ => ⟨S_, .i32⟩
  | .hbm, ⟨20, _⟩ => ⟨S500000, .i32⟩
  | .hbm, ⟨21, _⟩ => ⟨S500000, .i1⟩
  | .hbm, ⟨22, _⟩ => ⟨S_, .i32⟩
  | .hbm, ⟨23, _⟩ => ⟨S500000, .i32⟩
  | .hbm, ⟨24, _⟩ => ⟨S500000, .i32⟩
  | .hbm, ⟨25, _⟩ => ⟨S500000, .i32⟩
  | .hbm, ⟨26, _⟩ => ⟨S500000x1, .i32⟩
  | .hbm, ⟨27, _⟩ => ⟨S500000x128, .f32⟩
  | .hbm, ⟨28, _⟩ => ⟨S500000x384, .f32⟩
  | .hbm, ⟨29, _⟩ => ⟨S500000x128, .f32⟩
  | .hbm, ⟨30, _⟩ => ⟨S1x128, .f32⟩
  | .hbm, ⟨31, _⟩ => ⟨S500000x128, .f32⟩
  | .hbm, ⟨32, _⟩ => ⟨S500000x128, .f32⟩
  | .hbm, ⟨33, _⟩ => ⟨S500000x128, .f32⟩
  | .hbm, ⟨34, _⟩ => ⟨S500000x128, .f32⟩
  | .hbm, ⟨35, _⟩ => ⟨S_, .f32⟩
  | .hbm, ⟨36, _⟩ => ⟨S500000x128, .f32⟩
  | .hbm, ⟨37, _⟩ => ⟨S500000x128, .f32⟩
  | .hbm, ⟨38, _⟩ => ⟨S_, .f32⟩
  | .hbm, ⟨39, _⟩ => ⟨S500000x128, .f32⟩
  | .hbm, ⟨40, _⟩ => ⟨S500000x128, .f32⟩
  | .hbm, ⟨41, _⟩ => ⟨S500000x128, .f32⟩
  | .hbm, ⟨42, _⟩ => ⟨S500000x128, .f32⟩
  | .hbm, ⟨43, _⟩ => ⟨S1x128, .f32⟩
  | .hbm, ⟨44, _⟩ => ⟨S500000x128, .f32⟩
  | .hbm, ⟨45, _⟩ => ⟨S500000x128, .f32⟩
  | .hbm, ⟨46, _⟩ => ⟨S_, .f32⟩
  | .hbm, ⟨47, _⟩ => ⟨S500000, .f32⟩
  | .hbm, ⟨48, _⟩ => ⟨S500000x1, .f32⟩
  | .hbm, ⟨49, _⟩ => ⟨S_, .f32⟩
  | .hbm, ⟨50, _⟩ => ⟨S500000x1, .f32⟩
  | .hbm, ⟨51, _⟩ => ⟨S500000x1, .f32⟩
  | .hbm, ⟨52, _⟩ => ⟨S500000x128, .f32⟩
  | .hbm, ⟨53, _⟩ => ⟨S500000x128, .f32⟩
  | .hbm, ⟨54, _⟩ => ⟨S500000x128, .f32⟩
  | .hbm, ⟨55, _⟩ => ⟨S_, .f32⟩
  | .hbm, ⟨56, _⟩ => ⟨S500000, .f32⟩
  | .hbm, ⟨57, _⟩ => ⟨S500000x1, .f32⟩
  | .hbm, ⟨58, _⟩ => ⟨S_, .f32⟩
  | .hbm, ⟨59, _⟩ => ⟨S500000x1, .f32⟩
  | .hbm, ⟨60, _⟩ => ⟨S500000x1, .f32⟩
  | .hbm, ⟨61, _⟩ => ⟨S500000x128, .f32⟩
  | .hbm, ⟨62, _⟩ => ⟨S500000x128, .f32⟩
  | .hbm, ⟨63, _⟩ => ⟨S_, .f32⟩
  | .hbm, ⟨64, _⟩ => ⟨S500000x1, .f32⟩
  | .hbm, ⟨65, _⟩ => ⟨S500000x1, .f32⟩
  | .hbm, ⟨66, _⟩ => ⟨S500000x1, .f32⟩
  | .hbm, ⟨67, _⟩ => ⟨S500000x128, .f32⟩
  | .hbm, ⟨68, _⟩ => ⟨S500000x128, .f32⟩
  | .hbm, ⟨69, _⟩ => ⟨S1x128, .f32⟩
  | .hbm, ⟨70, _⟩ => ⟨S500000x128, .f32⟩
  | .hbm, ⟨71, _⟩ => ⟨S500000x128, .f32⟩
  | .hbm, ⟨72, _⟩ => ⟨S1x128, .f32⟩
  | .hbm, ⟨73, _⟩ => ⟨S500000x128, .f32⟩
  | .hbm, ⟨74, _⟩ => ⟨S500000x128, .f32⟩
  | .hbm, ⟨75, _⟩ => ⟨S500000x128, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst : Ref sig .tc := ⟨.hbm, 46, rfl⟩
abbrev main_v24 : Ref sig .tc := ⟨.hbm, 47, rfl⟩
abbrev main_v25 : Ref sig .tc := ⟨.hbm, 48, rfl⟩
abbrev main_cst_3 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_4 : Ref sig .tc := ⟨.hbm, 55, rfl⟩
abbrev main_v31 : Ref sig .tc := ⟨.hbm, 56, rfl⟩
abbrev main_v32 : Ref sig .tc := ⟨.hbm, 57, rfl⟩
abbrev main_cst_5 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x128_S500000x384_d1 : Shape.Concatenates [S500000x128, S500000x128, S500000x128] S500000x384 1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  reducesTo_S500000x128_S500000_d1 : S500000x128.ReducesTo [1] S500000
  h_S_ : 0 < S_.numel
  bcast_S_S500000x1 : S_.BroadcastsInDim S500000x1 (![] : Fin 0 → Fin S500000x1.rank)
  bcast_S500000x1_S500000x128_0_1 : S500000x1.BroadcastsInDim S500000x128 (![0, 1] : Fin 2 → Fin S500000x128.rank)
  gather_S100000x128_S500000x1_S500000x128_1_0_n_n_0_1_1128_wf : GatherDims.WF S100000x128 S500000x1 S500000x128 [1] [0] [] [0] [] 1 ![1, 128]
  dot_S500000x384_S384x128_S500000x128_1_0_0_1_n_n_wf : DotDims.WF S500000x384 S384x128 S500000x128 [1] [0] [0] [1] [] []
  dot_S500000x128_S128x128_S500000x128_1_0_0_1_n_n_wf : DotDims.WF S500000x128 S128x128 S500000x128 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x384_S384x128_S500000x128_1_0_0_1_n_n : DotDims S500000x384 S384x128 S500000x128 where
  lhsContracting := [1]
  rhsContracting := [0]
  lhsNonContracting := [0]
  rhsNonContracting := [1]
  lhsBatch := []
  rhsBatch := []
  wf := dot_S500000x384_S384x128_S500000x128_1_0_0_1_n_n_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf

class Facts : Prop extends Facts₀ where

variable [Facts]
-- ==== Proof.RowMlp.lean ====
/-
  The mathematics both programs compute, for ONE edge, on the extended reals.

  An edge carries three rows of 128 numbers: its own features `e`, and the features `s`, `d` of its two end nodes.
  The update is a two-layer perceptron followed by a layer normalisation and a residual:

    hidden k = (Σ e·We + Σ s·Ws + Σ d·Wd) k + b₁ k          (We, Ws, Wd: the three 128-row bands of the 384×128 weight)
    act k    = hidden k · logistic (hidden k)               (silu)
    y q      = Σ_k act k · W₂ k q + b₂ q
    μ        = (Σ_q y q) / 128,   σ² = (Σ_q (y q − μ)²) / 128
    out q    = (y q − μ) · rsqrt (σ² + ε) · γ q + β q + e q

  One program contracts the concatenated row [e | s | d] against the whole 384×128 weight in one sum of 384 terms,
  the other contracts the three bands separately and adds the three sums. On the extended reals addition is
  associative and commutative (it is a commutative monoid, infinities included), so a sum over 384 = 128 + 128 + 128
  indices is the sum of its three consecutive bands: `sum_three_bands`. Nothing else differs between the two
  programs, so no finiteness of the inputs is needed anywhere.
-/
import Idealize.ShloMosaic.PureOps.Ideal
import Idealize.ShloMosaic.Lib.ValueIdx
import Mathlib.Algebra.BigOperators.Fin

noncomputable section

namespace Cert.EdgeMlp

open Idealize.ShloMosaic Idealize.ShloMosaic.ValueIdx

/-- A sum over 384 consecutive indices is the sum of its three bands of 128, in any commutative additive monoid. -/
theorem sum_three_bands {M : Type*} [AddCommMonoid M] (f : Fin 384 → M) :
    ∑ k : Fin 384, f k
      = (∑ k : Fin 128, f ⟨k.val, by omega⟩ + ∑ k : Fin 128, f ⟨128 + k.val, by omega⟩)
        + ∑ k : Fin 128, f ⟨256 + k.val, by omega⟩ := by
  have h1 : ∑ k : Fin (256 + 128), f k
      = ∑ k : Fin 256, f (Fin.castAdd 128 k) + ∑ k : Fin 128, f (Fin.natAdd 256 k) :=
    Fin.sum_univ_add (a := 256) (b := 128) f
  have h2 : ∑ k : Fin (128 + 128), f (Fin.castAdd 128 k)
      = ∑ k : Fin 128, f (Fin.castAdd 128 (Fin.castAdd 128 k)) + ∑ k : Fin 128, f (Fin.castAdd 128 (Fin.natAdd 128 k)) :=
    Fin.sum_univ_add (a := 128) (b := 128) fun k : Fin (128 + 128) => f (Fin.castAdd 128 k)
  exact h1.trans (congrArg (· + _) h2)

/-- The binary32 word of `1.0` denotes the number 1. -/
theorem ofBits_one : Ideal.ofBits .f32 0x3F800000#32 = 1 := by
  simp [Ideal.ofBits, Ideal.ieee, -EReal.coe_mul]; norm_num

/-- silu: `x · logistic x`. -/
def silu (x : EReal) : EReal := x * Ideal.logistic x

/-- The first layer before its activation, the weight given as its three bands. -/
def firstLayer (e s d : Fin 128 → EReal) (we ws wd : Fin 128 → Fin 128 → EReal) (b1 : Fin 128 → EReal) (q : Fin 128) : EReal :=
  ((∑ k : Fin 128, e k * we k q + ∑ k : Fin 128, s k * ws k q) + ∑ k : Fin 128, d k * wd k q) + b1 q

/-- The second layer. -/
def secondLayer (h : Fin 128 → EReal) (w2 : Fin 128 → Fin 128 → EReal) (b2 : Fin 128 → EReal) (q : Fin 128) : EReal :=
  (∑ k : Fin 128, h k * w2 k q) + b2 q

/-- The mean of a row of 128: its sum divided by the number 128 (spelt by its binary32 word, as both programs spell it). -/
def rowMean (y : Fin 128 → EReal) : EReal := Ideal.div (∑ k : Fin 128, y k) (Ideal.ofBits .f32 0x43000000#32)

/-- Layer normalisation of a row with scale `g` and shift `bt`; ε is the binary32 nearest to 1e-5, the same word in both programs. -/
def layerNorm (y g bt : Fin 128 → EReal) (q : Fin 128) : EReal :=
  ((y q - rowMean y) * Ideal.rsqrt (rowMean (fun k => (y k - rowMean y) * (y k - rowMean y)) + Ideal.ofBits .f32 0x3727C5AC#32)) * g q + bt q

/-- The whole update of one edge's row. -/
def edgeRow (e s d : Fin 128 → EReal) (we ws wd : Fin 128 → Fin 128 → EReal) (b1 : Fin 128 → EReal)
    (w2 : Fin 128 → Fin 128 → EReal) (b2 g bt : Fin 128 → EReal) (q : Fin 128) : EReal :=
  layerNorm (secondLayer (fun k => silu (firstLayer e s d we ws wd b1 k)) w2 b2) g bt q + e q

/-! ## The whole array: 500000 edges, each row updated from its own rows -/

/-- An entry of a 500000 × 128 array. -/
abbrev EdgeIdx : Type := (⟨2, ![500000, 128]⟩ : Shape).Idx

/-- The edge (row) and the feature (column) of an entry, as numbers below their extents. -/
def rowOf (i : EdgeIdx) : Fin 500000 := ⟨(i 0).val, idx2_lt0 i⟩
def colOf (i : EdgeIdx) : Fin 128 := ⟨(i 1).val, idx2_lt1 i⟩

/-- The updated edge-feature array: entry (p, q) is the update of row p of the edge features `E` and of the two
    gathered node-feature arrays `S`, `D`, at q. -/
def edgeArray (E S D : EdgeIdx → EReal) (we ws wd : Fin 128 → Fin 128 → EReal) (b1 : Fin 128 → EReal)
    (w2 : Fin 128 → Fin 128 → EReal) (b2 g bt : Fin 128 → EReal) : EdgeIdx → EReal :=
  fun i => edgeRow (fun k => E (ix2 (rowOf i) k)) (fun k => S (ix2 (rowOf i) k)) (fun k => D (ix2 (rowOf i) k))
    we ws wd b1 w2 b2 g bt (colOf i)

theorem edgeArray_apply (E S D : EdgeIdx → EReal) (we ws wd : Fin 128 → Fin 128 → EReal) (b1 : Fin 128 → EReal)
    (w2 : Fin 128 → Fin 128 → EReal) (b2 g bt : Fin 128 → EReal) (p : Fin 500000) (q : Fin 128) :
    edgeArray E S D we ws wd b1 w2 b2 g bt (ix2 p q)
      = edgeRow (fun k => E (ix2 p k)) (fun k => S (ix2 p k)) (fun k => D (ix2 p k)) we ws wd b1 w2 b2 g bt q := rfl

end Cert.EdgeMlp

end
-- ==== Proof.KernelRows.lean ====
/-
  The kernel's body, read one edge at a time.

  At a grid point the body holds a tile of 5000 edges: 5000 rows of the edge features and of the two gathered
  node-feature arrays, and the weights whole. Every operation of the body works row by row — a product of the tile
  with a 128×128 matrix takes row r of the tile to the sums Σ_k row r at k · matrix at (k, q); a bias held as one row
  is added to every row; the mean and the variance are sums along a row kept as a column and spread back over the
  row — so what the body stores at (r, q) is `edgeRow` of row r of its three tiles. A change of float format is the
  identity on the extended reals and a product accumulated into the zero tile is the bare sum, so the three products
  of the first layer appear as the three band sums the specification adds, in the body's own order.
-/
import proofs.«122308_j79156247265436_2_alg».proof.Proof.Gen.KernelIdeal.Value
import proofs.«122308_j79156247265436_2_alg».proof.Proof.RowMlp
import Idealize.ShloMosaic.Lib.ValueIdx
import Idealize.ShloMosaic.Lib.Pipeline.Value
import Idealize.ShloMosaic.PureOps.Ideal.Laws

noncomputable section

namespace Cert.KernelIdeal.TileRows

open Cert.KernelIdeal Cert.KernelIdeal.Gen
open Idealize.ShloMosaic Idealize.ShloMosaic.TcCoe Idealize.ShloMosaic.ValueIdx Cert.EdgeMlp

/-! ## Pointwise operations at an entry -/

theorem logistic_apply {s : Shape} {φ : FTy} (v : FVec Ideal s φ) (i : s.Idx) : logistic v i = Ideal.logistic (v i) := rfl
theorem rsqrt_apply {s : Shape} {φ : FTy} (v : FVec Ideal s φ) (i : s.Idx) : rsqrt v i = Ideal.rsqrt (v i) := rfl

/-! ## A tile times a 128×128 matrix, into the zero tile -/

theorem lhs_row (i : S5000x128.Idx) (c : dot_S5000x128_S128x128_S5000x128_1_0_0_1_n_n.contr.Idx) : (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs_col (i : S5000x128.Idx) (c : dot_S5000x128_S128x128_S5000x128_1_0_0_1_n_n.contr.Idx) : (dot_S5000x128_S128x128_S5000x128_1_0_0_1_n_n.lhsIdx i c 1).val = (c ⟨0, by decide⟩).val :=
  dot_S5000x128_S128x128_S5000x128_1_0_0_1_n_n.lhsIdx_val_of_single rfl i c
theorem rhs_row (i : S5000x128.Idx) (c : dot_S5000x128_S128x128_S5000x128_1_0_0_1_n_n.contr.Idx) : (dot_S5000x128_S128x128_S5000x128_1_0_0_1_n_n.rhsIdx i c 0).val = (c ⟨0, by decide⟩).val :=
  dot_S5000x128_S128x128_S5000x128_1_0_0_1_n_n.rhsIdx_val_of_single rfl i c
theorem rhs_col (i : S5000x128.Idx) (c : dot_S5000x128_S128x128_S5000x128_1_0_0_1_n_n.contr.Idx) : (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- Entry (r, q) of the product is the sum over k of row r at k times the matrix at (k, q), in any float formats. -/
theorem matmul_row {φ₁ φ₂ : FTy} (A : FVec Ideal S5000x128 φ₁) (B : FVec Ideal S128x128 φ₂) (r : Fin 5000) (q : Fin 128) :
    matmul dot_S5000x128_S128x128_S5000x128_1_0_0_1_n_n none A B (constant S5000x128 .f32 0x00000000#32) (ix2 r q)
      = ∑ k : Fin 128, A (ix2 r k) * B (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q) ((contrEquiv1 dot_S5000x128_S128x128_S5000x128_1_0_0_1_n_n 128 rfl rfl).symm k) = ix2 r k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 r q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## One row spread over the tile; a row sum; a column spread over the rows -/

/-- A [1,128] row broadcast to the tile: entry (r, q) is the row at q. -/
theorem bias_row (v : FVec Ideal S1x128 .f32) (r : Fin 5000) (q : Fin 128) :
    broadcastTo S5000x128 v broadcasts_S1x128_S5000x128 (ix2 r q) = v (ix2 (0 : Fin 1) q) :=
  broadcastTo_apply _ _ (ix2 r q) (ix2 (0 : Fin 1) q) (fun a => match a with
    | ⟨0, _⟩ => by show 0 = (if (1 : Nat) = 1 then 0 else r.val); rw [if_pos rfl]
    | ⟨1, _⟩ => by show q.val = (if (128 : Nat) = 1 then 0 else q.val); rw [if_neg (by decide)])

/-- The lane sum of the tile at row r is the sum of row r. -/
theorem rowsum (src : FVec Ideal S5000x128 .f32) (r : Fin 5000) (hφ : FKind.Formats .f32)
    (hacc : (0x00000000#32 : BitVec 32) = 0x00000000#32) :
    multiReduction .add [1] S5000 src 0x00000000#32 reduces_S5000x128_S5000 hφ hacc (ix1 r)
      = ∑ k : Fin 128, src (ix2 r k) := by
  refine (Ideal.multiReduction_add_single src 0x00000000#32 reduces_S5000x128_S5000 hφ hacc (ix1 r)).trans ?_
  show ∑ k : Fin 128, src (reduces_S5000x128_S5000.lift (ix1 r) k) = _
  exact Finset.sum_congr rfl fun k _ => congrArg src (funext fun a => Fin.ext (by match a with | ⟨0, _⟩ => rfl | ⟨1, _⟩ => rfl))

/-- A per-row vector [5000] kept as a column [5000,1] and spread over the tile: entry (r, k) is the vector at r. -/
theorem column_spread (v : FVec Ideal S5000x1 .f32) (r : Fin 5000) (k : Fin 128) :
    broadcastTo S5000x128 v broadcasts_S5000x1_S5000x128 (ix2 r k) = v (ix2 r (0 : Fin 1)) :=
  broadcastTo_apply _ _ (ix2 r k) (ix2 r (0 : Fin 1)) (fun a => match a with
    | ⟨0, _⟩ => by show r.val = (if (5000 : Nat) = 1 then 0 else r.val); rw [if_neg (by decide)]
    | ⟨1, _⟩ => by show 0 = (if (1 : Nat) = 1 then 0 else k.val); rw [if_pos rfl])

theorem column_of (v : FVec Ideal S5000 .f32) (r : Fin 5000) :
    shapeCast S5000x1 v shapeCasts_S5000_S5000x1 (ix2 r (0 : Fin 1)) = v (ix1 r) :=
  shapeCast_apply _ _ (ix2 r (0 : Fin 1)) (ix1 r) (by
    rw [Shape.rowMajor_val_one, Shape.rowMajor_val_two]; show r.val = r.val * 1 + 0; omega)

/-- The row mean spread over the tile, as the body computes it for the deviations. -/
theorem mean_spread (Y : FVec Ideal S5000x128 .f32) (r : Fin 5000) (k : Fin 128) (hφ : FKind.Formats .f32)
    (hacc : (0x00000000#32 : BitVec 32) = 0x00000000#32) :
    broadcastTo S5000x128 (divf (shapeCast S5000x1 (multiReduction .add [1] S5000 Y 0x00000000#32 reduces_S5000x128_S5000 hφ hacc)
        shapeCasts_S5000_S5000x1) (broadcast S5000x1 (Scalar.ofBits .f32 0x43000000#32))) broadcasts_S5000x1_S5000x128 (ix2 r k)
      = rowMean (fun j => Y (ix2 r j)) := by
  rw [column_spread, divf_apply, column_of, rowsum]
  rfl

/-- The row of a tile entry, as a number below 5000. -/
def tileRow (i : S5000x128.Idx) : Fin 5000 := ⟨(i 0).val, idx2_lt0 i⟩

theorem tileRow_ix2 (r : Fin 5000) (k : Fin 128) : tileRow (ix2 r k) = r := rfl

/-- The squared deviations of a tile from its row means, as one function of the entry. -/
theorem sqdev_eq (Y : FVec Ideal S5000x128 .f32) (hφ : FKind.Formats .f32) (hacc : (0x00000000#32 : BitVec 32) = 0x00000000#32) :
    mulf
        (subf Y (broadcastTo S5000x128 (divf (shapeCast S5000x1 (multiReduction .add [1] S5000 Y 0x00000000#32 reduces_S5000x128_S5000 hφ hacc)
          shapeCasts_S5000_S5000x1) (broadcast S5000x1 (Scalar.ofBits .f32 0x43000000#32))) broadcasts_S5000x1_S5000x128))
        (subf Y (broadcastTo S5000x128 (divf (shapeCast S5000x1 (multiReduction .add [1] S5000 Y 0x00000000#32 reduces_S5000x128_S5000 hφ hacc)
          shapeCasts_S5000_S5000x1) (broadcast S5000x1 (Scalar.ofBits .f32 0x43000000#32))) broadcasts_S5000x1_S5000x128))
      = fun i : S5000x128.Idx => (Y i - rowMean (fun j => Y (ix2 (tileRow i) j))) * (Y i - rowMean (fun j => Y (ix2 (tileRow i) j))) := by
  funext i
  obtain ⟨r, k, rfl⟩ : ∃ (r : Fin 5000) (k : Fin 128), i = ix2 r k := ⟨i 0, i 1, eq_ix2 i⟩
  rw [mulf_apply, subf_apply, mean_spread]
  rfl

/-! ## The second layer's output, and the stored block, at an entry -/

section Tile
variable (P0 : Vec Ideal S5000x128 .f32) (P1 P2 : Vec Ideal S5000x128 .bf16) (P3 P4 P5 : Vec Ideal S128x128 .f32)
  (P6 : Vec Ideal S1x128 .f32) (P7 : Vec Ideal S128x128 .f32) (P8 P9 P10 : Vec Ideal S1x128 .f32)

/-- The value before normalisation at (r, q): the second layer over silu of the first, of row r. -/
theorem pay2_apply (r : Fin 5000) (q : Fin 128) :
    k0_pay2 P0 P1 P2 P3 P4 P5 P6 P7 P8 (ix2 r q)
      = secondLayer (fun k => silu (firstLayer (fun j => P0 (ix2 r j)) (fun j => P1 (ix2 r j)) (fun j => P2 (ix2 r j))
          (fun a b => P3 (ix2 a b)) (fun a b => P4 (ix2 a b)) (fun a b => P5 (ix2 a b)) (fun j => P6 (ix2 (0 : Fin 1) j)) k))
          (fun a b => P7 (ix2 a b)) (fun j => P8 (ix2 (0 : Fin 1) j)) q := by
  unfold k0_pay2
  simp only [addf_apply, mulf_apply, logistic_apply, truncf_apply, shapeCast_self, matmul_row, bias_row]
  rfl

theorem ix_self (r : Fin 5000) (q : Fin 128) : Value.ix11_0 (ix2 r q) = ix2 r q :=
  funext fun a => Fin.ext (by match a with | ⟨0, _⟩ => rfl | ⟨1, _⟩ => rfl)
theorem ix_row1 (r : Fin 5000) (q : Fin 128) : Value.ix11_1 (ix2 r q) = ix1 r :=
  funext fun a => Fin.ext (by match a with | ⟨0, _⟩ => rfl)
theorem ix_row2 (r : Fin 5000) (q : Fin 128) : Value.ix11_2 (ix2 r q) = ix1 r :=
  funext fun a => Fin.ext (by match a with | ⟨0, _⟩ => rfl)
theorem ix_col3 (r : Fin 5000) (q : Fin 128) : Value.ix11_3 (ix2 r q) = ix2 (0 : Fin 1) q :=
  funext fun a => Fin.ext (by match a with | ⟨0, _⟩ => rfl | ⟨1, _⟩ => rfl)
theorem ix_col4 (r : Fin 5000) (q : Fin 128) : Value.ix11_4 (ix2 r q) = ix2 (0 : Fin 1) q :=
  funext fun a => Fin.ext (by match a with | ⟨0, _⟩ => rfl | ⟨1, _⟩ => rfl)
theorem ix_self5 (r : Fin 5000) (q : Fin 128) : Value.ix11_5 (ix2 r q) = ix2 r q :=
  funext fun a => Fin.ext (by match a with | ⟨0, _⟩ => rfl | ⟨1, _⟩ => rfl)

/-- What the body stores at (r, q) of its output tile is the edge update of row r of its input tiles. -/
theorem tile_apply (r : Fin 5000) (q : Fin 128) :
    Value.E11 P0 P1 P2 P3 P4 P5 P6 P7 P8 P9 P10 (ix2 r q)
      = edgeRow (fun j => P0 (ix2 r j)) (fun j => P1 (ix2 r j)) (fun j => P2 (ix2 r j))
          (fun a b => P3 (ix2 a b)) (fun a b => P4 (ix2 a b)) (fun a b => P5 (ix2 a b)) (fun j => P6 (ix2 (0 : Fin 1) j))
          (fun a b => P7 (ix2 a b)) (fun j => P8 (ix2 (0 : Fin 1) j)) (fun j => P9 (ix2 (0 : Fin 1) j)) (fun j => P10 (ix2 (0 : Fin 1) j)) q := by
  show FloatOps.addf (FloatOps.addf (FloatOps.mulf (FloatOps.mulf (FloatOps.subf _ (FloatOps.divf _ _)) (FloatOps.rsqrt (FloatOps.addf (FloatOps.divf _ _) _))) _) _) _ = _
  rw [ix_self, ix_row1, ix_row2, ix_col3, ix_col4, ix_self5, sqdev_eq, rowsum, rowsum]
  simp only [pay2_apply, tileRow_ix2]
  rfl

end Tile

end Cert.KernelIdeal.TileRows

end
-- ==== Proof.Entry.lean ====
/-
  The tiles a grid point stages, as rows of the program's arguments.

  The grid has 100 points; point t stages rows 5000·t … 5000·t + 4999 of the edge features and of the two gathered
  node-feature arrays, and the weights whole. The three 128×128 first-layer weights the kernel is handed are the
  three 128-row bands of the 384×128 weight (three slices), its four [1,128] rows are the four length-128 vectors
  re-laid, and the two gathered arrays are the node features (their change of float format the identity here)
  gathered at the wrapped source and destination indices.
-/
import proofs.«122308_j79156247265436_2_alg».proof.Proof.Gen.KernelIdeal.Value
import proofs.«122308_j79156247265436_2_alg».proof.Proof.KernelRows
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Cert.KernelIdeal.TileRows
open Idealize.ShloMosaic.ValueIdx Cert.EdgeMlp

variable (m : (ℓ : Loc nD τ sig) → Buf (Elt Ideal) ℓ) (ρ : Dev nD → PrngReg)

/-! ## The windows' index maps, decided over the 100 grid points -/

/-- The three row-tiled inputs and the output move one block of rows per point; the weights stay at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0) :=
  (by decide +kernel : ∀ t : Fin grid0.N, _)

/-- Row r of block t is row 5000·t + r of the array. -/
def edgeOf (t : Fin cfg0.N) (r : Fin 5000) : Fin 500000 :=
  ⟨t.val * 5000 + r.val, by have := t.isLt; have hN : cfg0.N = 100 := N_0; have := r.isLt; omega⟩

/-! ## Each input tile is rows of its array -/

theorem tile0 (c : Dev nD) (t : Fin cfg0.N) (r : Fin 5000) (k : Fin 128) :
    (iblk m c 0 t : Vec Ideal S5000x128 .f32) (ix2 r k) = (V m c main_arg0 : S500000x128.Idx → EReal) (ix2 (edgeOf t r) k) := by
  obtain ⟨⟨h0, h1⟩, -⟩ := idx_facts t
  unfold iblk
  rw [View.read_apply]
  show V m c main_arg0 _ = V m c main_arg0 _
  refine congrArg _ (funext fun a => Fin.ext ?_)
  match a with
  | ⟨0, _⟩ => show win0_0.index t 0 * 5000 + 1 * r.val = t.val * 5000 + r.val; rw [h0]; omega
  | ⟨1, _⟩ => show win0_0.index t 1 * 128 + 1 * k.val = k.val; rw [h1]; omega

theorem tile1 (c : Dev nD) (t : Fin cfg0.N) (r : Fin 5000) (k : Fin 128) :
    (iblk m c 1 t : Vec Ideal S5000x128 .bf16) (ix2 r k) = (V m c main_v7 : S500000x128.Idx → EReal) (ix2 (edgeOf t r) k) := by
  obtain ⟨-, ⟨h0, h1⟩, -⟩ := idx_facts t
  unfold iblk
  rw [View.read_apply]
  show V m c main_v7 _ = V m c main_v7 _
  refine congrArg _ (funext fun a => Fin.ext ?_)
  match a with
  | ⟨0, _⟩ => show win0_1.index t 0 * 5000 + 1 * r.val = t.val * 5000 + r.val; rw [h0]; omega
  | ⟨1, _⟩ => show win0_1.index t 1 * 128 + 1 * k.val = k.val; rw [h1]; omega

theorem tile2 (c : Dev nD) (t : Fin cfg0.N) (r : Fin 5000) (k : Fin 128) :
    (iblk m c 2 t : Vec Ideal S5000x128 .bf16) (ix2 r k) = (V m c main_v14 : S500000x128.Idx → EReal) (ix2 (edgeOf t r) k) := by
  obtain ⟨-, -, ⟨h0, h1⟩, -⟩ := idx_facts t
  unfold iblk
  rw [View.read_apply]
  show V m c main_v14 _ = V m c main_v14 _
  refine congrArg _ (funext fun a => Fin.ext ?_)
  match a with
  | ⟨0, _⟩ => show win0_2.index t 0 * 5000 + 1 * r.val = t.val * 5000 + r.val; rw [h0]; omega
  | ⟨1, _⟩ => show win0_2.index t 1 * 128 + 1 * k.val = k.val; rw [h1]; omega

/-! ## The weights are staged whole at every point -/

theorem tile3 (c : Dev nD) (t : Fin cfg0.N) (a b : Fin 128) :
    (iblk m c 3 t : Vec Ideal S128x128 .f32) (ix2 a b) = (V m c main_v15 : S128x128.Idx → EReal) (ix2 a b) := by
  obtain ⟨-, -, -, ⟨h0, h1⟩, -⟩ := idx_facts t
  unfold iblk
  rw [View.read_apply]
  show V m c main_v15 _ = V m c main_v15 _
  refine congrArg _ (funext fun x => Fin.ext ?_)
  match x with
  | ⟨0, _⟩ => show win0_3.index t 0 * 128 + 1 * a.val = a.val; rw [h0]; omega
  | ⟨1, _⟩ => show win0_3.index t 1 * 128 + 1 * b.val = b.val; rw [h1]; omega

theorem tile4 (c : Dev nD) (t : Fin cfg0.N) (a b : Fin 128) :
    (iblk m c 4 t : Vec Ideal S128x128 .f32) (ix2 a b) = (V m c main_v16 : S128x128.Idx → EReal) (ix2 a b) := by
  obtain ⟨-, -, -, -, ⟨h0, h1⟩, -⟩ := idx_facts t
  unfold iblk
  rw [View.read_apply]
  show V m c main_v16 _ = V m c main_v16 _
  refine congrArg _ (funext fun x => Fin.ext ?_)
  match x with
  | ⟨0, _⟩ => show win0_4.index t 0 * 128 + 1 * a.val = a.val; rw [h0]; omega
  | ⟨1, _⟩ => show win0_4.index t 1 * 128 + 1 * b.val = b.val; rw [h1]; omega

theorem tile5 (c : Dev nD) (t : Fin cfg0.N) (a b : Fin 128) :
    (iblk m c 5 t : Vec Ideal S128x128 .f32) (ix2 a b) = (V m c main_v17 : S128x128.Idx → EReal) (ix2 a b) := by
  obtain ⟨-, -, -, -, -, ⟨h0, h1⟩, -⟩ := idx_facts t
  unfold iblk
  rw [View.read_apply]
  show V m c main_v17 _ = V m c main_v17 _
  refine congrArg _ (funext fun x => Fin.ext ?_)
  match x with
  | ⟨0, _⟩ => show win0_5.index t 0 * 128 + 1 * a.val = a.val; rw [h0]; omega
  | ⟨1, _⟩ => show win0_5.index t 1 * 128 + 1 * b.val = b.val; rw [h1]; omega

theorem tile6 (c : Dev nD) (t : Fin cfg0.N) (j : Fin 128) :
    (iblk m c 6 t : Vec Ideal S1x128 .f32) (ix2 (0 : Fin 1) j) = (V m c main_v18 : S1x128.Idx → EReal) (ix2 (0 : Fin 1) j) := by
  obtain ⟨-, -, -, -, -, -, ⟨h0, h1⟩, -⟩ := idx_facts t
  unfold iblk
  rw [View.read_apply]
  show V m c main_v18 _ = V m c main_v18 _
  refine congrArg _ (funext fun x => Fin.ext ?_)
  match x with
  | ⟨0, _⟩ => show win0_6.index t 0 * 1 + 1 * 0 = 0; rw [h0]
  | ⟨1, _⟩ => show win0_6.index t 1 * 128 + 1 * j.val = j.val; rw [h1]; omega

theorem tile7 (c : Dev nD) (t : Fin cfg0.N) (a b : Fin 128) :
    (iblk m c 7 t : Vec Ideal S128x128 .f32) (ix2 a b) = (V m c main_arg6 : S128x128.Idx → EReal) (ix2 a b) := by
  obtain ⟨-, -, -, -, -, -, -, ⟨h0, h1⟩, -⟩ := idx_facts t
  unfold iblk
  rw [View.read_apply]
  show V m c main_arg6 _ = V m c main_arg6 _
  refine congrArg _ (funext fun x => Fin.ext ?_)
  match x with
  | ⟨0, _⟩ => show win0_7.index t 0 * 128 + 1 * a.val = a.val; rw [h0]; omega
  | ⟨1, _⟩ => show win0_7.index t 1 * 128 + 1 * b.val = b.val; rw [h1]; omega

theorem tile8 (c : Dev nD) (t : Fin cfg0.N) (j : Fin 128) :
    (iblk m c 8 t : Vec Ideal S1x128 .f32) (ix2 (0 : Fin 1) j) = (V m c main_v19 : S1x128.Idx → EReal) (ix2 (0 : Fin 1) j) := by
  obtain ⟨-, -, -, -, -, -, -, -, ⟨h0, h1⟩, -⟩ := idx_facts t
  unfold iblk
  rw [View.read_apply]
  show V m c main_v19 _ = V m c main_v19 _
  refine congrArg _ (funext fun x => Fin.ext ?_)
  match x with
  | ⟨0, _⟩ => show win0_8.index t 0 * 1 + 1 * 0 = 0; rw [h0]
  | ⟨1, _⟩ => show win0_8.index t 1 * 128 + 1 * j.val = j.val; rw [h1]; omega

theorem tile9 (c : Dev nD) (t : Fin cfg0.N) (j : Fin 128) :
    (iblk m c 9 t : Vec Ideal S1x128 .f32) (ix2 (0 : Fin 1) j) = (V m c main_v20 : S1x128.Idx → EReal) (ix2 (0 : Fin 1) j) := by
  obtain ⟨-, -, -, -, -, -, -, -, -, ⟨h0, h1⟩, -⟩ := idx_facts t
  unfold iblk
  rw [View.read_apply]
  show V m c main_v20 _ = V m c main_v20 _
  refine congrArg _ (funext fun x => Fin.ext ?_)
  match x with
  | ⟨0, _⟩ => show win0_9.index t 0 * 1 + 1 * 0 = 0; rw [h0]
  | ⟨1, _⟩ => show win0_9.index t 1 * 128 + 1 * j.val = j.val; rw [h1]; omega

theorem tile10 (c : Dev nD) (t : Fin cfg0.N) (j : Fin 128) :
    (iblk m c 10 t : Vec Ideal S1x128 .f32) (ix2 (0 : Fin 1) j) = (V m c main_v21 : S1x128.Idx → EReal) (ix2 (0 : Fin 1) j) := by
  obtain ⟨-, -, -, -, -, -, -, -, -, -, ⟨h0, h1⟩, -⟩ := idx_facts t
  unfold iblk
  rw [View.read_apply]
  show V m c main_v21 _ = V m c main_v21 _
  refine congrArg _ (funext fun x => Fin.ext ?_)
  match x with
  | ⟨0, _⟩ => show win0_10.index t 0 * 1 + 1 * 0 = 0; rw [h0]
  | ⟨1, _⟩ => show win0_10.index t 1 * 128 + 1 * j.val = j.val; rw [h1]; omega

/-! ## What the windows' arrays hold when the region is entered -/

/-- Rows of the node features gathered at an index vector: a negative index wraps by 100000 (the select), and the
    table's change of float format is the identity on the extended reals. -/
def gatherRows (x : FVec Ideal S100000x128 .f32) (ix : (⟨S500000, .i32⟩ : BufTy).Contents (Elt Ideal)) : S500000x128.Idx → EReal :=
  Host.gather gather_S100000x128_S500000x1_S500000x128_1_0_n_n_0_1_1128 (truncf .bf16 x bitsLt_bf16_f32)
    (broadcastInDim S500000x1 ![0] bcast_S500000_S500000x1_0
      (select (cmpi .slt ix (broadcastInDim S500000 ![] bcast_S_S500000 (constantI S_ 32 0#32)))
        (addi ix (broadcastInDim S500000 ![] bcast_S_S500000 (constantI S_ 32 100000#32))) ix))

theorem entry_src (c : Dev nD) :
    (V m c main_v7 : S500000x128.Idx → EReal) = gatherRows (m ((c : Thread nD τ).loc main_arg1)) (m ((c : Thread nD τ).loc main_arg2)) := by
  dsimp only [V, hostOps0]; after_results; rfl

theorem entry_dst (c : Dev nD) :
    (V m c main_v14 : S500000x128.Idx → EReal) = gatherRows (m ((c : Thread nD τ).loc main_arg1)) (m ((c : Thread nD τ).loc main_arg3)) := by
  dsimp only [V, hostOps0]; after_results; rfl

/-- The three first-layer weights are the three 128-row bands of the 384×128 weight. -/
theorem entry_band0 (c : Dev nD) (a b : Fin 128) :
    (V m c main_v15 : S128x128.Idx → EReal) (ix2 a b)
      = (m ((c : Thread nD τ).loc main_arg4) : S384x128.Idx → EReal) (ix2 (⟨a.val, by omega⟩ : Fin 384) b) := by
  have e : (V m c main_v15 : S128x128.Idx → EReal)
      = extractStridedSlice S128x128 ![0, 0] (m ((c : Thread nD τ).loc main_arg4) : S384x128.Idx → EReal) slices_S384x128_S128x128_0_0 := by
    dsimp only [V, hostOps0]; after_results
  rw [e]
  exact extractStridedSlice_apply _ _ _ (ix2 a b) _ (fun x => match x with
    | ⟨0, _⟩ => (Nat.zero_add _).symm
    | ⟨1, _⟩ => (Nat.zero_add _).symm)

theorem entry_band1 (c : Dev nD) (a b : Fin 128) :
    (V m c main_v16 : S128x128.Idx → EReal) (ix2 a b)
      = (m ((c : Thread nD τ).loc main_arg4) : S384x128.Idx → EReal) (ix2 (⟨128 + a.val, by omega⟩ : Fin 384) b) := by
  have e : (V m c main_v16 : S128x128.Idx → EReal)
      = extractStridedSlice S128x128 ![128, 0] (m ((c : Thread nD τ).loc main_arg4) : S384x128.Idx → EReal) slices_S384x128_S128x128_128_0 := by
    dsimp only [V, hostOps0]; after_results
  rw [e]
  exact extractStridedSlice_apply _ _ _ (ix2 a b) _ (fun x => match x with
    | ⟨0, _⟩ => rfl
    | ⟨1, _⟩ => (Nat.zero_add _).symm)

theorem entry_band2 (c : Dev nD) (a b : Fin 128) :
    (V m c main_v17 : S128x128.Idx → EReal) (ix2 a b)
      = (m ((c : Thread nD τ).loc main_arg4) : S384x128.Idx → EReal) (ix2 (⟨256 + a.val, by omega⟩ : Fin 384) b) := by
  have e : (V m c main_v17 : S128x128.Idx → EReal)
      = extractStridedSlice S128x128 ![256, 0] (m ((c : Thread nD τ).loc main_arg4) : S384x128.Idx → EReal) slices_S384x128_S128x128_256_0 := by
    dsimp only [V, hostOps0]; after_results
  rw [e]
  exact extractStridedSlice_apply _ _ _ (ix2 a b) _ (fun x => match x with
    | ⟨0, _⟩ => rfl
    | ⟨1, _⟩ => (Nat.zero_add _).symm)

/-- The four [1,128] rows are the four length-128 vectors re-laid. -/
theorem entry_b1 (c : Dev nD) (j : Fin 128) :
    (V m c main_v18 : S1x128.Idx → EReal) (ix2 (0 : Fin 1) j) = (m ((c : Thread nD τ).loc main_arg5) : S128.Idx → EReal) (ix1 j) := by
  have e : (V m c main_v18 : S1x128.Idx → EReal)
      = shapeCast S1x128 (m ((c : Thread nD τ).loc main_arg5) : S128.Idx → EReal) shapeCasts_S128_S1x128 := by
    dsimp only [V, hostOps0]; after_results; rfl
  rw [e]
  exact shapeCast_apply _ _ (ix2 (0 : Fin 1) j) (ix1 j) (by
    rw [Shape.rowMajor_val_one, Shape.rowMajor_val_two]; show j.val = 0 * 128 + j.val; omega)

theorem entry_b2 (c : Dev nD) (j : Fin 128) :
    (V m c main_v19 : S1x128.Idx → EReal) (ix2 (0 : Fin 1) j) = (m ((c : Thread nD τ).loc main_arg7) : S128.Idx → EReal) (ix1 j) := by
  have e : (V m c main_v19 : S1x128.Idx → EReal)
      = shapeCast S1x128 (m ((c : Thread nD τ).loc main_arg7) : S128.Idx → EReal) shapeCasts_S128_S1x128 := by
    dsimp only [V, hostOps0]; after_results; rfl
  rw [e]
  exact shapeCast_apply _ _ (ix2 (0 : Fin 1) j) (ix1 j) (by
    rw [Shape.rowMajor_val_one, Shape.rowMajor_val_two]; show j.val = 0 * 128 + j.val; omega)

theorem entry_gamma (c : Dev nD) (j : Fin 128) :
    (V m c main_v20 : S1x128.Idx → EReal) (ix2 (0 : Fin 1) j) = (m ((c : Thread nD τ).loc main_arg8) : S128.Idx → EReal) (ix1 j) := by
  have e : (V m c main_v20 : S1x128.Idx → EReal)
      = shapeCast S1x128 (m ((c : Thread nD τ).loc main_arg8) : S128.Idx → EReal) shapeCasts_S128_S1x128 := by
    dsimp only [V, hostOps0]; after_results; rfl
  rw [e]
  exact shapeCast_apply _ _ (ix2 (0 : Fin 1) j) (ix1 j) (by
    rw [Shape.rowMajor_val_one, Shape.rowMajor_val_two]; show j.val = 0 * 128 + j.val; omega)

theorem entry_beta (c : Dev nD) (j : Fin 128) :
    (V m c main_v21 : S1x128.Idx → EReal) (ix2 (0 : Fin 1) j) = (m ((c : Thread nD τ).loc main_arg9) : S128.Idx → EReal) (ix1 j) := by
  have e : (V m c main_v21 : S1x128.Idx → EReal)
      = shapeCast S1x128 (m ((c : Thread nD τ).loc main_arg9) : S128.Idx → EReal) shapeCasts_S128_S1x128 := by
    dsimp only [V, hostOps0]; after_results; rfl
  rw [e]
  exact shapeCast_apply _ _ (ix2 (0 : Fin 1) j) (ix1 j) (by
    rw [Shape.rowMajor_val_one, Shape.rowMajor_val_two]; show j.val = 0 * 128 + j.val; omega)

end Cert.KernelIdeal.Whole

end
-- ==== Proof.Blocks.lean ====
/-
  From tiles to the whole array.

  What grid point t writes back is the edge update of rows 5000·t … 5000·t + 4999: block t of ONE function of the
  program's arguments, `result`. The 100 blocks tile the 500000 rows (row p lies in block p / 5000), so the result
  array ends holding `result`.
-/
import proofs.«122308_j79156247265436_2_alg».proof.Proof.Entry

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Cert.KernelIdeal.TileRows
open Idealize.ShloMosaic.ValueIdx Cert.EdgeMlp

variable (m : (ℓ : Loc nD τ sig) → Buf (Elt Ideal) ℓ) (ρ : Dev nD → PrngReg)

/-! ## Each staged tile, as rows of the program's arguments -/

theorem in0 (c : Dev nD) (t : Fin cfg0.N) (r : Fin 5000) (k : Fin 128) :
    (iblk m c 0 t : Vec Ideal S5000x128 .f32) (ix2 r k) = ((m ((c : Thread nD τ).loc main_arg0)) : S500000x128.Idx → EReal) (ix2 (edgeOf t r) k) :=
  (tile0 m c t r k).trans (congrFun (V_main_arg0 m c) _)

theorem in1 (c : Dev nD) (t : Fin cfg0.N) (r : Fin 5000) (k : Fin 128) :
    (iblk m c 1 t : Vec Ideal S5000x128 .bf16) (ix2 r k) = gatherRows (m ((c : Thread nD τ).loc main_arg1)) (m ((c : Thread nD τ).loc main_arg2)) (ix2 (edgeOf t r) k) :=
  (tile1 m c t r k).trans (congrFun (entry_src m c) _)

theorem in2 (c : Dev nD) (t : Fin cfg0.N) (r : Fin 5000) (k : Fin 128) :
    (iblk m c 2 t : Vec Ideal S5000x128 .bf16) (ix2 r k) = gatherRows (m ((c : Thread nD τ).loc main_arg1)) (m ((c : Thread nD τ).loc main_arg3)) (ix2 (edgeOf t r) k) :=
  (tile2 m c t r k).trans (congrFun (entry_dst m c) _)

theorem in3 (c : Dev nD) (t : Fin cfg0.N) (a b : Fin 128) :
    (iblk m c 3 t : Vec Ideal S128x128 .f32) (ix2 a b) = ((m ((c : Thread nD τ).loc main_arg4)) : S384x128.Idx → EReal) (ix2 (⟨a.val, by omega⟩ : Fin 384) b) :=
  (tile3 m c t a b).trans (entry_band0 m c a b)

theorem in4 (c : Dev nD) (t : Fin cfg0.N) (a b : Fin 128) :
    (iblk m c 4 t : Vec Ideal S128x128 .f32) (ix2 a b) = ((m ((c : Thread nD τ).loc main_arg4)) : S384x128.Idx → EReal) (ix2 (⟨128 + a.val, by omega⟩ : Fin 384) b) :=
  (tile4 m c t a b).trans (entry_band1 m c a b)

theorem in5 (c : Dev nD) (t : Fin cfg0.N) (a b : Fin 128) :
    (iblk m c 5 t : Vec Ideal S128x128 .f32) (ix2 a b) = ((m ((c : Thread nD τ).loc main_arg4)) : S384x128.Idx → EReal) (ix2 (⟨256 + a.val, by omega⟩ : Fin 384) b) :=
  (tile5 m c t a b).trans (entry_band2 m c a b)

theorem in6 (c : Dev nD) (t : Fin cfg0.N) (j : Fin 128) :
    (iblk m c 6 t : Vec Ideal S1x128 .f32) (ix2 (0 : Fin 1) j) = ((m ((c : Thread nD τ).loc main_arg5)) : S128.Idx → EReal) (ix1 j) :=
  (tile6 m c t j).trans (entry_b1 m c j)

theorem in7 (c : Dev nD) (t : Fin cfg0.N) (a b : Fin 128) :
    (iblk m c 7 t : Vec Ideal S128x128 .f32) (ix2 a b) = ((m ((c : Thread nD τ).loc main_arg6)) : S128x128.Idx → EReal) (ix2 a b) :=
  (tile7 m c t a b).trans (congrFun (V_main_arg6 m c) _)

theorem in8 (c : Dev nD) (t : Fin cfg0.N) (j : Fin 128) :
    (iblk m c 8 t : Vec Ideal S1x128 .f32) (ix2 (0 : Fin 1) j) = ((m ((c : Thread nD τ).loc main_arg7)) : S128.Idx → EReal) (ix1 j) :=
  (tile8 m c t j).trans (entry_b2 m c j)

theorem in9 (c : Dev nD) (t : Fin cfg0.N) (j : Fin 128) :
    (iblk m c 9 t : Vec Ideal S1x128 .f32) (ix2 (0 : Fin 1) j) = ((m ((c : Thread nD τ).loc main_arg8)) : S128.Idx → EReal) (ix1 j) :=
  (tile9 m c t j).trans (entry_gamma m c j)

theorem in10 (c : Dev nD) (t : Fin cfg0.N) (j : Fin 128) :
    (iblk m c 10 t : Vec Ideal S1x128 .f32) (ix2 (0 : Fin 1) j) = ((m ((c : Thread nD τ).loc main_arg9)) : S128.Idx → EReal) (ix1 j) :=
  (tile10 m c t j).trans (entry_beta m c j)

theorem hz : (![0, 0] : Fin 2 → Nat) = fun _ => 0 := funext fun a => by fin_cases a <;> rfl

/-- What the result array ends holding: the edge update of the edge features and of the node features gathered at the
    source and at the destination indices, under the three bands of the first weight and the other weights. -/
def result (c : Dev nD) : S500000x128.Idx → EReal :=
  edgeArray (m ((c : Thread nD τ).loc main_arg0))
    (gatherRows (m ((c : Thread nD τ).loc main_arg1)) (m ((c : Thread nD τ).loc main_arg2)))
    (gatherRows (m ((c : Thread nD τ).loc main_arg1)) (m ((c : Thread nD τ).loc main_arg3)))
    (fun a b => (m ((c : Thread nD τ).loc main_arg4) : S384x128.Idx → EReal) (ix2 (⟨a.val, by omega⟩ : Fin 384) b))
    (fun a b => (m ((c : Thread nD τ).loc main_arg4) : S384x128.Idx → EReal) (ix2 (⟨128 + a.val, by omega⟩ : Fin 384) b))
    (fun a b => (m ((c : Thread nD τ).loc main_arg4) : S384x128.Idx → EReal) (ix2 (⟨256 + a.val, by omega⟩ : Fin 384) b))
    (fun j => (m ((c : Thread nD τ).loc main_arg5) : S128.Idx → EReal) (ix1 j))
    (fun a b => (m ((c : Thread nD τ).loc main_arg6) : S128x128.Idx → EReal) (ix2 a b))
    (fun j => (m ((c : Thread nD τ).loc main_arg7) : S128.Idx → EReal) (ix1 j))
    (fun j => (m ((c : Thread nD τ).loc main_arg8) : S128.Idx → EReal) (ix1 j))
    (fun j => (m ((c : Thread nD τ).loc main_arg9) : S128.Idx → EReal) (ix1 j))

/-- WHAT POINT `t` WRITES BACK is block `t` of `result`. -/
theorem flushed_eq (c : Dev nD) (t : Fin cfg0.N) :
    (dats m 0 c).flushed 11 t = ((cfg0.win 11).blk t).view.read (Elt Ideal) (result m c) := by
  obtain ⟨-, -, -, -, -, -, -, -, -, -, -, ⟨h0, h1⟩⟩ := idx_facts t
  rw [Value.flushed11]
  unfold out0_11
  simp only [View.ld_unit_zero (S := S5000x128) hz, View.ld_unit_zero (S := S128x128) hz, View.ld_unit_zero (S := S1x128) hz]
  refine funext fun (j : S5000x128.Idx) => ?_
  obtain ⟨r, q, rfl⟩ : ∃ (r : Fin 5000) (q : Fin 128), j = ix2 r q := ⟨j 0, j 1, eq_ix2 j⟩
  show _ = result m c (((cfg0.win 11).blk t).view.emb (ix2 r q))
  have he : ((cfg0.win 11).blk t).view.emb (ix2 r q) = (ix2 (edgeOf t r) q : S500000x128.Idx) :=
    funext fun a => Fin.ext (by
      match a with
      | ⟨0, _⟩ => show win0_11.index t 0 * 5000 + 1 * r.val = t.val * 5000 + r.val; rw [h0]; omega
      | ⟨1, _⟩ => show win0_11.index t 1 * 128 + 1 * q.val = q.val; rw [h1]; omega)
  rw [he]
  refine (Value.canon11_eq (iblk m c 0 t) (iblk m c 1 t) (iblk m c 2 t) (iblk m c 3 t) (iblk m c 4 t) (iblk m c 5 t)
    (iblk m c 6 t) (iblk m c 7 t) (iblk m c 8 t) (iblk m c 9 t) (iblk m c 10 t) (ix2 r q)).trans ?_
  refine (tile_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) r q).trans ?_
  unfold result
  rw [edgeArray_apply]
  simp only [in0, in1, in2, in3, in4, in5, in6, in7, in8, in9, in10]

/-- An index of the array is in point `t`'s block iff each coordinate is in the block's range on its axis. -/
theorem mem_blk (t : Fin cfg0.N) (i : S500000x128.Idx) :
    i ∈ ((cfg0.win 11).blk t).view.set
      ↔ ∀ a : Fin 2, win0_11.index t a * S5000x128.size a ≤ (i a).val ∧ (i a).val < win0_11.index t a * S5000x128.size a + S5000x128.size a := by
  show i ∈ ((View.whole main_v22).slice (win0_11.rect t)).set ↔ _
  rw [View.set_slice_whole, Rect.mem_set_unit]
  exact Iff.rfl

/-- Every row lies in some point's block: row p in block p / 5000. -/
theorem covered (i : S500000x128.Idx) :
    ∃ t : Fin cfg0.N, (cfg0.win 11).flush t = true ∧ i ∈ ((cfg0.win 11).blk t).view.set := by
  have hi0 : (i 0).val < 500000 := (i 0).isLt
  have hi1 : (i 1).val < 128 := (i 1).isLt
  have hN : cfg0.N = 100 := N_0
  obtain ⟨t, ht⟩ : ∃ t : Fin cfg0.N, t.val = (i 0).val / 5000 := ⟨⟨(i 0).val / 5000, by omega⟩, rfl⟩
  obtain ⟨-, -, -, -, -, -, -, -, -, -, -, ⟨h0, h1⟩⟩ := idx_facts t
  refine ⟨t, flush0_11 t, ?_⟩
  rw [mem_blk]
  intro a
  match a with
  | ⟨0, _⟩ =>
    show win0_11.index t 0 * 5000 ≤ (i 0).val ∧ (i 0).val < win0_11.index t 0 * 5000 + 5000
    rw [h0]; omega
  | ⟨1, _⟩ =>
    show win0_11.index t 1 * 128 ≤ (i 1).val ∧ (i 1).val < win0_11.index t 1 * 128 + 128
    rw [h1]; omega

/-- THE ARRAY after the run is `result`. -/
theorem final (c : Dev nD) : (dats m 0 c).arrAt 11 cfg0.N = result m c :=
  (dats m 0 c).arrAt_eq_of_cover 11 (result m c) (fun t _ => flushed_eq m c t) covered

/-- The run, read: the result array at `result`, every argument unchanged. -/
theorem run : θ_run defs (onTc (τ := τ) (main (F := Ideal))) ⟨m, fun _ => 0, ρ⟩ fun r => ∀ c : Dev nD,
      r.2.mem ((c : Thread nD τ).loc main_v22) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.Whole

end
-- ==== Proof.RefRows.lean ====
/-
  The reference program, read one edge at a time.

  Its result at entry (p, q) depends on row p of the edge features, row p of each of the two gathered node-feature
  arrays, and the weights: it is `edgeRow` of those rows. The reference multiplies the concatenated row
  [e | s | d] (384 entries) by the whole 384×128 weight; a concatenation read at column k is its first, second or
  third piece according to the band k falls in, so by `sum_three_bands` the one sum of 384 products is the three
  band sums the specification adds. Its silu is spelt x · (1 / (1 + exp (−x))), which is `x · logistic x` by the
  definition of the logistic function on the extended reals; the sums that start from the literal 0 are the sums.
-/
import proofs.«122308_j79156247265436_2_alg».proof.Proof.Gen.ReferenceIdeal.Read
import proofs.«122308_j79156247265436_2_alg».proof.Proof.RowMlp
import Idealize.ShloMosaic.Lib.ValueIdx
import Idealize.ShloMosaic.Lib.Pipeline.Value
import Idealize.ShloMosaic.PureOps.Ideal.Laws

noncomputable section

namespace Cert.ReferenceIdeal.RefRows

open Cert.ReferenceIdeal Cert.ReferenceIdeal.Gen Cert.ReferenceIdeal.Read
open Idealize.ShloMosaic Idealize.ShloMosaic.TcCoe Idealize.ShloMosaic.ValueIdx Cert.EdgeMlp

/-! ## Where each stage reads its operand, at an entry (p, q) -/

theorem lidx15 (p : Fin 500000) (q : Fin 128) (k : Fin 384) : lidx_main_v15 (ix2 p q) k = (ix2 p k : S500000x384.Idx) :=
  funext fun a => Fin.ext (by match a with | ⟨0, _⟩ => rfl | ⟨1, _⟩ => rfl)
theorem ridx15 (p : Fin 500000) (q : Fin 128) (k : Fin 384) : ridx_main_v15 (ix2 p q) k = (ix2 k q : S384x128.Idx) :=
  funext fun a => Fin.ext (by match a with | ⟨0, _⟩ => rfl | ⟨1, _⟩ => rfl)
theorem lidx20 (p : Fin 500000) (q : Fin 128) (k : Fin 128) : lidx_main_v20 (ix2 p q) k = (ix2 p k : S500000x128.Idx) :=
  funext fun a => Fin.ext (by match a with | ⟨0, _⟩ => rfl | ⟨1, _⟩ => rfl)
theorem ridx20 (p : Fin 500000) (q : Fin 128) (k : Fin 128) : ridx_main_v20 (ix2 p q) k = (ix2 k q : S128x128.Idx) :=
  funext fun a => Fin.ext (by match a with | ⟨0, _⟩ => rfl | ⟨1, _⟩ => rfl)
/-- A length-128 vector spread over the rows: entry (p, q) reads the vector at q. -/
theorem idxRow17 (p : Fin 500000) (q : Fin 128) : idx_main_v16 (idx_main_v17 (ix2 p q)) = (ix1 q : S128.Idx) :=
  funext fun a => Fin.ext (by match a with | ⟨0, _⟩ => rfl)
theorem idxRow22 (p : Fin 500000) (q : Fin 128) : idx_main_v21 (idx_main_v22 (ix2 p q)) = (ix1 q : S128.Idx) :=
  funext fun a => Fin.ext (by match a with | ⟨0, _⟩ => rfl)
theorem idxRow43 (p : Fin 500000) (q : Fin 128) : idx_main_v42 (idx_main_v43 (ix2 p q)) = (ix1 q : S128.Idx) :=
  funext fun a => Fin.ext (by match a with | ⟨0, _⟩ => rfl)
theorem idxRow46 (p : Fin 500000) (q : Fin 128) : idx_main_v45 (idx_main_v46 (ix2 p q)) = (ix1 q : S128.Idx) :=
  funext fun a => Fin.ext (by match a with | ⟨0, _⟩ => rfl)
/-- A per-row column [500000, 1] spread over the columns: entry (p, q) reads the column at (p, 0). -/
theorem idxCol28 (p : Fin 500000) (q : Fin 128) : idx_main_v28 (ix2 p q) = (ix2 p (0 : Fin 1) : S500000x1.Idx) :=
  funext fun a => Fin.ext (by match a with | ⟨0, _⟩ => rfl | ⟨1, _⟩ => rfl)
theorem idxCol35 (p : Fin 500000) (q : Fin 128) : idx_main_v35 (ix2 p q) = (ix2 p (0 : Fin 1) : S500000x1.Idx) :=
  funext fun a => Fin.ext (by match a with | ⟨0, _⟩ => rfl | ⟨1, _⟩ => rfl)
theorem idxCol40 (p : Fin 500000) (q : Fin 128) : idx_main_v40 (ix2 p q) = (ix2 p (0 : Fin 1) : S500000x1.Idx) :=
  funext fun a => Fin.ext (by match a with | ⟨0, _⟩ => rfl | ⟨1, _⟩ => rfl)
/-- A row sum kept as a column: the column at (p, 0) is the sum over row p. -/
theorem idxSum24 (p : Fin 500000) (z : Fin 1) (k : Fin 128) : idx_main_v24 (idx_main_v25 (ix2 p z)) k = (ix2 p k : S500000x128.Idx) :=
  funext fun a => Fin.ext (by match a with | ⟨0, _⟩ => rfl | ⟨1, _⟩ => rfl)
theorem idxSum31 (p : Fin 500000) (z : Fin 1) (k : Fin 128) : idx_main_v31 (idx_main_v32 (ix2 p z)) k = (ix2 p k : S500000x128.Idx) :=
  funext fun a => Fin.ext (by match a with | ⟨0, _⟩ => rfl | ⟨1, _⟩ => rfl)

/-! ## The concatenated row [e | s | d] read band by band -/

section Cat
variable (A B C : S500000x128.Idx → EReal) (p : Fin 500000) (k : Fin 128)

/-- Columns 0 … 127 of the concatenation are the first piece. -/
theorem cat_band0 :
    concatenate S500000x384 1 [⟨S500000x128, A⟩, ⟨S500000x128, B⟩, ⟨S500000x128, C⟩]
      concatenates_S500000x128_S500000x128_S500000x128_S500000x384_d1 (ix2 p (⟨k.val, by omega⟩ : Fin 384)) = A (ix2 p k) :=
  concatenate_apply_piece (t := S500000x384) 1 [⟨S500000x128, A⟩, ⟨S500000x128, B⟩, ⟨S500000x128, C⟩]
    concatenates_S500000x128_S500000x128_S500000x128_S500000x384_d1 _ 0 (show (0 : Nat) < 3 by omega) S500000x128 A rfl rfl 0 rfl (ix2 p k)
    (fun b hb => by match b with | ⟨0, _⟩ => rfl | ⟨1, _⟩ => exact absurd rfl hb) (Nat.zero_add _)

/-- Columns 128 … 255 are the second piece. -/
theorem cat_band1 :
    concatenate S500000x384 1 [⟨S500000x128, A⟩, ⟨S500000x128, B⟩, ⟨S500000x128, C⟩]
      concatenates_S500000x128_S500000x128_S500000x128_S500000x384_d1 (ix2 p (⟨128 + k.val, by omega⟩ : Fin 384)) = B (ix2 p k) :=
  concatenate_apply_piece (t := S500000x384) 1 [⟨S500000x128, A⟩, ⟨S500000x128, B⟩, ⟨S500000x128, C⟩]
    concatenates_S500000x128_S500000x128_S500000x128_S500000x384_d1 _ 1 (show (1 : Nat) < 3 by omega) S500000x128 B rfl rfl 128 rfl (ix2 p k)
    (fun b hb => by match b with | ⟨0, _⟩ => rfl | ⟨1, _⟩ => exact absurd rfl hb) rfl

/-- Columns 256 … 383 are the third piece. -/
theorem cat_band2 :
    concatenate S500000x384 1 [⟨S500000x128, A⟩, ⟨S500000x128, B⟩, ⟨S500000x128, C⟩]
      concatenates_S500000x128_S500000x128_S500000x128_S500000x384_d1 (ix2 p (⟨256 + k.val, by omega⟩ : Fin 384)) = C (ix2 p k) :=
  concatenate_apply_piece (t := S500000x384) 1 [⟨S500000x128, A⟩, ⟨S500000x128, B⟩, ⟨S500000x128, C⟩]
    concatenates_S500000x128_S500000x128_S500000x128_S500000x384_d1 _ 2 (show (2 : Nat) < 3 by omega) S500000x128 C rfl rfl 256 rfl (ix2 p k)
    (fun b hb => by match b with | ⟨0, _⟩ => rfl | ⟨1, _⟩ => exact absurd rfl hb) rfl

end Cat

/-! ## The stages -/

variable (x0 : (⟨S500000x128, .f32⟩ : BufTy).Contents (Elt Ideal)) (x1 : (⟨S100000x128, .f32⟩ : BufTy).Contents (Elt Ideal))
  (x2 x3 : (⟨S500000, .i32⟩ : BufTy).Contents (Elt Ideal)) (x4 : (⟨S384x128, .f32⟩ : BufTy).Contents (Elt Ideal))
  (x5 : (⟨S128, .f32⟩ : BufTy).Contents (Elt Ideal)) (x6 : (⟨S128x128, .f32⟩ : BufTy).Contents (Elt Ideal))
  (x7 x8 x9 : (⟨S128, .f32⟩ : BufTy).Contents (Elt Ideal))

/-- The first layer before its activation: the one sum over the 384 concatenated columns is the three band sums. -/
theorem hidden_apply (p : Fin 500000) (q : Fin 128) :
    val_main_v18 (F := Ideal) x0 x1 x2 x3 x4 x5 (ix2 p q)
      = firstLayer (fun k => x0 (ix2 p k)) (fun k => val_main_v6 (F := Ideal) x1 x2 (ix2 p k)) (fun k => val_main_v13 (F := Ideal) x1 x3 (ix2 p k))
          (fun k j => x4 (ix2 (⟨k.val, by omega⟩ : Fin 384) j)) (fun k j => x4 (ix2 (⟨128 + k.val, by omega⟩ : Fin 384) j))
          (fun k j => x4 (ix2 (⟨256 + k.val, by omega⟩ : Fin 384) j)) (fun j => x5 (ix1 j)) q := by
  rw [val_main_v18_apply, val_main_v15_apply, sum_three_bands, val_main_v17_apply, val_main_v16_apply, idxRow17]
  unfold firstLayer val_main_v14
  simp only [lidx15, ridx15, cat_band0, cat_band1, cat_band2, Ideal.addf_def]

/-- silu, spelt by the reference as x · (1 / (1 + exp (−x))). -/
theorem act_apply (p : Fin 500000) (q : Fin 128) :
    val_main_v19 (F := Ideal) x0 x1 x2 x3 x4 x5 (ix2 p q) = silu (val_main_v18 (F := Ideal) x0 x1 x2 x3 x4 x5 (ix2 p q)) := by
  rw [val_main_v19_apply, val_main_call0_v5_apply, val_main_call0_v4_apply, val_main_call0_cst_0_apply, val_main_call0_v3_apply,
    val_main_call0_v2_apply, val_main_call0_cst_apply, val_main_call0_v1_apply, val_main_call0_v0_apply]
  unfold silu Ideal.logistic
  simp only [Ideal.mulf_def, Ideal.hostDivf_def, Ideal.ofBits_def, Ideal.addf_def, Ideal.hostUnary_exp_def, Ideal.hostNegf_def,
    Ideal.negf_def, ofBits_one]

/-- The second layer. -/
theorem y_apply (p : Fin 500000) (q : Fin 128) :
    val_main_v23 (F := Ideal) x0 x1 x2 x3 x4 x5 x6 x7 (ix2 p q)
      = secondLayer (fun k => val_main_v19 (F := Ideal) x0 x1 x2 x3 x4 x5 (ix2 p k)) (fun k j => x6 (ix2 k j)) (fun j => x7 (ix1 j)) q := by
  rw [val_main_v23_apply, val_main_v20_apply, val_main_v22_apply, val_main_v21_apply, idxRow22]
  unfold secondLayer
  simp only [lidx20, ridx20, Ideal.addf_def]

/-- The row mean, kept as a column. -/
theorem mean_apply (p : Fin 500000) (z : Fin 1) :
    val_main_v27 (F := Ideal) x0 x1 x2 x3 x4 x5 x6 x7 (ix2 p z)
      = rowMean (fun k => val_main_v23 (F := Ideal) x0 x1 x2 x3 x4 x5 x6 x7 (ix2 p k)) := by
  rw [val_main_v27_apply, val_main_v25_apply, val_main_v24_apply, val_main_v26_apply, val_main_cst_3_apply, val_main_cst_apply]
  unfold rowMean
  simp only [idxSum24, Ideal.hostDivf_def, Ideal.ofBits_def, Ideal.ofBits_zero_f32, zero_add]

/-- The row variance, kept as a column: the mean of the squared deviations from the row mean. -/
theorem var_apply (p : Fin 500000) (z : Fin 1) :
    val_main_v34 (F := Ideal) x0 x1 x2 x3 x4 x5 x6 x7 (ix2 p z)
      = rowMean (fun k => (val_main_v23 (F := Ideal) x0 x1 x2 x3 x4 x5 x6 x7 (ix2 p k) - rowMean (fun j => val_main_v23 (F := Ideal) x0 x1 x2 x3 x4 x5 x6 x7 (ix2 p j)))
          * (val_main_v23 (F := Ideal) x0 x1 x2 x3 x4 x5 x6 x7 (ix2 p k) - rowMean (fun j => val_main_v23 (F := Ideal) x0 x1 x2 x3 x4 x5 x6 x7 (ix2 p j)))) := by
  rw [val_main_v34_apply, val_main_v32_apply, val_main_v31_apply, val_main_v33_apply, val_main_cst_5_apply, val_main_cst_4_apply]
  unfold rowMean
  simp only [idxSum31, val_main_v30_apply, val_main_v29_apply, val_main_v28_apply, idxCol28, mean_apply, rowMean,
    Ideal.hostDivf_def, Ideal.ofBits_def, Ideal.ofBits_zero_f32, zero_add, Ideal.mulf_def, Ideal.subf_def]

/-- The reference's result at entry (p, q) is the edge update of row p. -/
theorem result_apply (p : Fin 500000) (q : Fin 128) :
    val_main_v48 (F := Ideal) x0 x1 x2 x3 x4 x5 x6 x7 x8 x9 (ix2 p q)
      = edgeRow (fun k => x0 (ix2 p k)) (fun k => val_main_v6 (F := Ideal) x1 x2 (ix2 p k)) (fun k => val_main_v13 (F := Ideal) x1 x3 (ix2 p k))
          (fun k j => x4 (ix2 (⟨k.val, by omega⟩ : Fin 384) j)) (fun k j => x4 (ix2 (⟨128 + k.val, by omega⟩ : Fin 384) j))
          (fun k j => x4 (ix2 (⟨256 + k.val, by omega⟩ : Fin 384) j)) (fun j => x5 (ix1 j))
          (fun k j => x6 (ix2 k j)) (fun j => x7 (ix1 j)) (fun j => x8 (ix1 j)) (fun j => x9 (ix1 j)) q := by
  rw [val_main_v48_apply, val_main_v47_apply, val_main_v44_apply, val_main_v41_apply, val_main_v36_apply, val_main_v35_apply,
    val_main_v40_apply, val_main_v39_apply, val_main_v38_apply, val_main_v37_apply, val_main_cst_6_apply,
    val_main_v43_apply, val_main_v42_apply, val_main_v46_apply, val_main_v45_apply, idxRow43, idxRow46, idxCol35, idxCol40,
    mean_apply, var_apply]
  unfold edgeRow layerNorm
  simp only [y_apply, act_apply, hidden_apply, Ideal.addf_def, Ideal.mulf_def, Ideal.subf_def, Ideal.hostUnary_rsqrt_def, Ideal.ofBits_def]

/-- So the reference's result array is the edge update of the arrays it is given, the two gathers carried whole. -/
theorem result_eq :
    val_main_v48 (F := Ideal) x0 x1 x2 x3 x4 x5 x6 x7 x8 x9
      = edgeArray x0 (val_main_v6 (F := Ideal) x1 x2) (val_main_v13 (F := Ideal) x1 x3)
          (fun k j => x4 (ix2 (⟨k.val, by omega⟩ : Fin 384) j)) (fun k j => x4 (ix2 (⟨128 + k.val, by omega⟩ : Fin 384) j))
          (fun k j => x4 (ix2 (⟨256 + k.val, by omega⟩ : Fin 384) j)) (fun j => x5 (ix1 j))
          (fun k j => x6 (ix2 k j)) (fun j => x7 (ix1 j)) (fun j => x8 (ix1 j)) (fun j => x9 (ix1 j)) := by
  funext i
  obtain ⟨p, q, rfl⟩ : ∃ (p : Fin 500000) (q : Fin 128), i = ix2 p q := ⟨i 0, i 1, eq_ix2 i⟩
  rw [result_apply, edgeArray_apply]

end Cert.ReferenceIdeal.RefRows

end
-- ==== Proof.lean ====
/-
  An edge update of a mesh graph network: for each of 500000 edges, the edge's 128 features and the 128 features of
  its source and destination nodes go through a two-layer perceptron (384 → 128 → 128, silu between), a layer
  normalisation and a residual. The kernel gathers the node rows on the host, tiles the edges in 100 blocks of 5000,
  and multiplies each of the three 128-column parts of the row by its own 128-row band of the first weight; the
  reference concatenates the three parts into one row of 384 and multiplies once. On the extended reals these are one
  function of the arguments, entry by entry (`Cert.EdgeMlp.edgeArray`): a sum over 384 indices is the sum of its three
  bands, and every other step is the same operation on both sides — the same gather at the same wrapped indices, the
  same silu (the logistic function IS 1 / (1 + exp (−x)) there), the same division by the word for 128, the same ε.
  No step uses that the inputs are finite.

  The frames are the generated ones (for the reference, its generated run with the results dropped); the idealization
  rewrote nothing, so the kernel and its idealization are one text read at two instances.
-/
import proofs.«122308_j79156247265436_2_alg».proof.Defs
import proofs.«122308_j79156247265436_2_alg».proof.Proof.Gen.Kernel
import proofs.«122308_j79156247265436_2_alg».proof.Proof.Gen.Kernel.Skeleton
import proofs.«122308_j79156247265436_2_alg».proof.Proof.Gen.Kernel.Launch
import proofs.«122308_j79156247265436_2_alg».proof.Proof.Gen.Kernel.Points
import proofs.«122308_j79156247265436_2_alg».proof.Proof.Gen.Kernel.Frame
import proofs.«122308_j79156247265436_2_alg».proof.Proof.Gen.KernelIdeal
import proofs.«122308_j79156247265436_2_alg».proof.Proof.Gen.KernelIdeal.Skeleton
import proofs.«122308_j79156247265436_2_alg».proof.Proof.Gen.KernelIdeal.Launch
import proofs.«122308_j79156247265436_2_alg».proof.Proof.Gen.KernelIdeal.Points
import proofs.«122308_j79156247265436_2_alg».proof.Proof.Gen.KernelIdeal.Frame
import proofs.«122308_j79156247265436_2_alg».proof.Proof.Gen.ReferenceIdeal
import proofs.«122308_j79156247265436_2_alg».proof.Proof.Gen.Pre_finite_inputs
import proofs.«122308_j79156247265436_2_alg».proof.Proof.Gen.KernelIdeal.Value
import proofs.«122308_j79156247265436_2_alg».proof.Proof.Gen.ReferenceIdeal.Run
import proofs.«122308_j79156247265436_2_alg».proof.Proof.Gen.ReferenceIdeal.Read
import proofs.«122308_j79156247265436_2_alg».proof.Proof.Blocks
import proofs.«122308_j79156247265436_2_alg».proof.Proof.RefRows
import Idealize.ShloMosaic.Adequacy
import Idealize.ShloMosaic.Init

noncomputable section

namespace Cert.Proof

open Idealize.ShloMosaic Idealize.ShloMosaic.TcCoe Idealize.SL.Sem

/-- Both programs gather the node rows the same way: the kernel's host code (which first changes the table's float
    format, the identity here) and the reference apply one gather to the same wrapped index vector. -/
theorem gather_src (x : FVec Ideal Cert.KernelIdeal.S100000x128 .f32)
    (ix : (⟨Cert.KernelIdeal.S500000, .i32⟩ : BufTy).Contents (Elt Ideal)) :
    Cert.KernelIdeal.Whole.gatherRows x ix = Cert.ReferenceIdeal.Read.val_main_v6 (F := Ideal) x ix := rfl

theorem gather_dst (x : FVec Ideal Cert.KernelIdeal.S100000x128 .f32)
    (ix : (⟨Cert.KernelIdeal.S500000, .i32⟩ : BufTy).Contents (Elt Ideal)) :
    Cert.KernelIdeal.Whole.gatherRows x ix = Cert.ReferenceIdeal.Read.val_main_v13 (F := Ideal) x ix := rfl

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization pass rewrote no operation. -/
theorem preserves : Cert.preserves_Kernel_KernelIdeal := trivial

/-- From memories that agree on the arguments, the kernel's result array ends at `result` (its tiles' updates put
    together) and the reference's at the edge update of the same arrays: one function. The second result of both is
    the node-feature argument itself. -/
theorem algebraic : Cert.algebraic_KernelIdeal_ReferenceIdeal := by
  intro m ρ m' ρ' _ hagree
  refine ⟨fun c => Cert.KernelIdeal.Whole.result m c,
    fun c => m ((c.tc : Thread Cert.KernelIdeal.nD Cert.KernelIdeal.τ).loc Cert.KernelIdeal.main_arg1), ?_, ?_⟩
  · exact (θ_run Cert.KernelIdeal.defs _ _).mono (fun r h c => ⟨(h c).1, (h c).2.2.1, (h c).2⟩)
      (Cert.KernelIdeal.Whole.run m ρ)
  · refine (θ_run Cert.ReferenceIdeal.defs _ _).mono
      (fun r h c => ⟨(h c).1.trans ?_, (h c).2.1.trans (hagree c).2.1, (h c).2.2⟩)
      (Cert.ReferenceIdeal.Value.run (F := Ideal) m' ρ')
    rw [Cert.ReferenceIdeal.Read.val_main_v48_eq, Cert.ReferenceIdeal.RefRows.result_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2,
      ← gather_src, ← gather_dst]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
